-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x256 .f32) (main_arg3 : FVec F S256 .f32) (main_arg4 : FVec F S256x64 .f32) (main_arg5 : FVec F S64 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x512 : Shape := ⟨2, ![2000, 512]⟩
abbrev S2000x256 : Shape := ⟨2, ![2000, 256]⟩
abbrev S850000x256 : Shape := ⟨2, ![850000, 256]⟩
abbrev S1x256 : Shape := ⟨2, ![1, 256]⟩
abbrev S50000x64 : Shape := ⟨2, ![50000, 64]⟩
abbrev S5000x256 : Shape := ⟨2, ![5000, 256]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 90
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x256, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x1, .f32⟩
  | .hbm, ⟨58, _⟩ => ⟨S850000x256, .f32⟩
  | .hbm, ⟨59, _⟩ => ⟨S850000x256, .f32⟩
  | .hbm, ⟨60, _⟩ => ⟨S_, .f32⟩
  | .hbm, ⟨61, _⟩ => ⟨S50000x256, .f32⟩
  | .hbm, ⟨62, _⟩ => ⟨S850000x1, .i32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S50000x64, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x64, .f32⟩
  | .hbm, ⟨80, _⟩ => ⟨S850000x1, .f32⟩
  | .hbm, ⟨81, _⟩ => ⟨S850000x64, .f32⟩
  | .hbm, ⟨82, _⟩ => ⟨S850000x64, .f32⟩
  | .hbm, ⟨83, _⟩ => ⟨S_, .f32⟩
  | .hbm, ⟨84, _⟩ => ⟨S50000x64, .f32⟩
  | .hbm, ⟨85, _⟩ => ⟨S850000x1, .i32⟩
  | .hbm, ⟨86, _⟩ => ⟨S50000x64, .f32⟩
  | .hbm, ⟨87, _⟩ => ⟨S1x64, .f32⟩
  | .hbm, ⟨88, _⟩ => ⟨S50000x64, .f32⟩
  | .hbm, ⟨89, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S5000x256, .f32⟩
  | .local _ .vmem, ⟨6, _⟩ => ⟨S5000x256, .f32⟩
  | .local _ .vmem, ⟨7, _⟩ => ⟨S256x64, .f32⟩
  | .local _ .vmem, ⟨8, _⟩ => ⟨S5000x64, .f32⟩
  | .local _ .vmem, ⟨9, _⟩ => ⟨S5000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x512_S512x256_S2000x256_1_0_0_1_n_n_wf : DotDims.WF S2000x512 S512x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x64_S5000x64_1_0_0_1_n_n_wf : DotDims.WF S5000x256 S256x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 90
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x256, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x1, .f32⟩
  | .hbm, ⟨58, _⟩ => ⟨S850000x256, .f32⟩
  | .hbm, ⟨59, _⟩ => ⟨S850000x256, .f32⟩
  | .hbm, ⟨60, _⟩ => ⟨S_, .f32⟩
  | .hbm, ⟨61, _⟩ => ⟨S50000x256, .f32⟩
  | .hbm, ⟨62, _⟩ => ⟨S850000x1, .i32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S50000x64, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x64, .f32⟩
  | .hbm, ⟨80, _⟩ => ⟨S850000x1, .f32⟩
  | .hbm, ⟨81, _⟩ => ⟨S850000x64, .f32⟩
  | .hbm, ⟨82, _⟩ => ⟨S850000x64, .f32⟩
  | .hbm, ⟨83, _⟩ => ⟨S_, .f32⟩
  | .hbm, ⟨84, _⟩ => ⟨S50000x64, .f32⟩
  | .hbm, ⟨85, _⟩ => ⟨S850000x1, .i32⟩
  | .hbm, ⟨86, _⟩ => ⟨S50000x64, .f32⟩
  | .hbm, ⟨87, _⟩ => ⟨S1x64, .f32⟩
  | .hbm, ⟨88, _⟩ => ⟨S50000x64, .f32⟩
  | .hbm, ⟨89, _⟩ => ⟨S50000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x256_S50000x256_1_0_0_1_n_n_wf : DotDims.WF S50000x512 S512x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The kernel program's run with its result named.

  @main is eight segments: three stretches of host operations, the first kernel call, two more stretches, the second
  kernel call, a last stretch. The contents of every buffer at each segment boundary are a fold from the launch
  memory: a stretch applies its operations in order, a kernel call replaces its arrays by what its write-backs leave
  and keeps every other buffer. Every weakly fair execution terminates, without a fault, with every buffer that is
  not scoped to a call at the last boundary's contents. Read at the result buffer this names the result; read at an
  argument buffer, which nothing writes, it gives back the launch contents.
-/
import proofs.«130119_j83545703842127_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the six argument arrays as launched. -/
theorem run : θ_run defs (onTc (τ := τ) (main (F := F))) ⟨m, fun _ => 0, ρ⟩ (fun r => ∀ c : Dev nD,
      r.2.mem ((c.tc : Thread nD τ).loc main_v65) = W8 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v65 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Out

end
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.Region0.lean ====
/-
  The first dense product, computed 2000 rows at a time, is the whole product.

  The first kernel call walks a grid of 25 points. At point `t` it loads rows `2000·t … 2000·t + 1999` of the
  `50000 × 512` left array and the whole `512 × 256` right array, multiplies them into a zero accumulator (the two
  changes of float format before the product are the identity on the extended reals), and writes the `2000 × 256`
  result back as rows `2000·t … 2000·t + 1999` of the output array.

  Entry `(r, c)` of a product is `∑ k, x (r, k) · w (k, c)`: it depends on row `r` of the left array only. So what
  point `t` writes back is exactly rows `2000·t …` of the product of the WHOLE arrays (`flushed_eq`), the 25 blocks
  of rows cover all 50000 rows (`cover`), and the output array ends holding the whole product (`final`) — for any
  contents `V` the buffers hold when the call is entered.
-/
import proofs.«130119_j83545703842127_1_alg».proof.Proof.Gen.KernelIdeal.Frame
import proofs.«130119_j83545703842127_1_alg».proof.Proof.LibPlainProduct
import Idealize.ShloMosaic.Lib.Pipeline.Value
import Idealize.ShloMosaic.Lib.ValueIdx

set_option maxRecDepth 16384

noncomputable section

namespace Cert.KernelIdeal.Dense0

open Cert.KernelIdeal Cert.KernelIdeal.Gen Idealize.ShloMosaic Idealize.ShloMosaic.TcCoe Idealize.SL.Sem
open Idealize.ShloMosaic.ValueIdx Idealize.ShloMosaic.PlainProduct

variable (V : (c : Dev nD) → (b : Ref sig .tc) → Buf (Elt Ideal) ((c : Thread nD τ).loc b))

theorem hz : (![0, 0] : Fin 2 → Nat) = fun _ => 0 := funext fun a => by fin_cases a <;> rfl

/-- What the body stores is the product, rows by columns, of the two blocks it loaded. -/
theorem pay_eq (x0 : FVec Ideal S2000x512 .f32) (x1 : FVec Ideal S512x256 .f32) :
    k0_pay1 (F := Ideal) x0 x1 = rowsByCols (M := 2000) (K := 512) (N := 256) x0 x1 := by
  unfold k0_pay1
  exact matmul_zero_plain (M := 2000) (K := 512) (N := 256) none x0 x1

/-- The three index maps over the 25 grid points: the left array's block and the output's block are both block `t` of
    rows and the only block of columns; the right array's block is always the whole array. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 24 :=
  (by decide +kernel : ∀ t : Fin grid0.N, _)

/-- Every one of the 25 blocks of rows is some point's. -/
theorem idx_onto : ∀ q : Fin 25, ∃ t : Fin cfg0.N, win0_2.index t = ![q.val, 0] :=
  (by decide +kernel : ∀ q : Fin 25, ∃ t : Fin grid0.N, win0_2.index t = ![q.val, 0])

/-- WHAT POINT `t` WRITES BACK is block `t` of the product of the whole arrays as the call finds them. -/
theorem flushed_eq (c : Dev nD) (t : Fin cfg0.N) :
    (dat0 V c).flushed 2 t = ((cfg0.win 2).blk t).view.read (Elt Ideal)
      (rowsByCols (φ₁ := .f32) (φ₂ := .f32) (M := 50000) (K := 512) (N := 256) (V c main_arg0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x256) hz]
  rw [pay_eq (iblk0 V c 0 t) (iblk0 V c 1 t)]
  obtain ⟨e0, e1, e2, e3, e4, e5⟩ := idx_facts t
  -- the right array's block is the whole right array
  have hw : (iblk0 V c 1 t : FVec Ideal S512x256 .f32) = V c main_arg2 := by
    funext y
    show V c main_arg2 (((cfg0.win 1).blk t).view.emb y) = V c main_arg2 y
    refine congrArg (V c main_arg2) (funext fun a => Fin.ext ?_)
    match a with
    | ⟨0, _⟩ => show win0_1.index t (0 : Fin 2) * 512 + 1 * (y 0).val = (y 0).val; omega
    | ⟨1, _⟩ => show win0_1.index t (1 : Fin 2) * 256 + 1 * (y 1).val = (y 1).val; omega
  rw [hw]
  funext j
  have hj0 : (j 0).val < 2000 := (j 0).isLt
  -- row `r` of the block is row `2000·t + r` of the array
  let e : Fin 2000 → Fin 50000 := fun r => ⟨win0_2.index t (0 : Fin 2) * 2000 + r.val, by have := r.isLt; omega⟩
  have hxb : ∀ (r : Fin 2000) (k : Fin 512),
      (iblk0 V c 0 t : FVec Ideal S2000x512 .f32) (ix2 (n0 := 2000) (n1 := 512) r k)
        = V c main_arg0 (ix2 (n0 := 50000) (n1 := 512) (e r) k) := by
    intro r k
    show V c main_arg0 (((cfg0.win 0).blk t).view.emb (ix2 (n0 := 2000) (n1 := 512) r k)) = _
    refine congrArg (V c main_arg0) (funext fun a => Fin.ext ?_)
    match a with
    | ⟨0, _⟩ => show win0_0.index t (0 : Fin 2) * 2000 + 1 * r.val = win0_2.index t (0 : Fin 2) * 2000 + r.val; omega
    | ⟨1, _⟩ => show win0_0.index t (1 : Fin 2) * 512 + 1 * k.val = k.val; omega
  have hemb : ((cfg0.win 2).blk t).view.emb j = ix2 (n0 := 50000) (n1 := 256) (e (j 0)) (j 1) := by
    funext a; apply Fin.ext
    match a with
    | ⟨0, _⟩ => show win0_2.index t (0 : Fin 2) * 2000 + 1 * (j 0).val = win0_2.index t (0 : Fin 2) * 2000 + (j 0).val; omega
    | ⟨1, _⟩ => show win0_2.index t (1 : Fin 2) * 256 + 1 * (j 1).val = (j 1).val; omega
  show rowsByCols (M := 2000) (K := 512) (N := 256) (iblk0 V c 0 t) (V c main_arg2) j
    = rowsByCols (φ₁ := .f32) (φ₂ := .f32) (M := 50000) (K := 512) (N := 256) (V c main_arg0) (V c main_arg2) (((cfg0.win 2).blk t).view.emb j)
  rw [hemb]
  exact rowsByCols_rows (M := 50000) (K := 512) (N := 256) (B := 2000) (V c main_arg0) (V c main_arg2) (iblk0 V c 0 t) e hxb j

/-- An index of the output array is in point `t`'s block iff each coordinate is in the block's range on its axis. -/
theorem mem_blk (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v31).slice (win0_2.rect t)).set ↔ _
  rw [View.set_slice_whole, Rect.mem_set_unit]
  exact Iff.rfl

/-- Every index of the output array is in the block of the point that computes its row: point `r / 2000`. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- THE OUTPUT ARRAY after the call: the product, rows by columns, of the two input arrays as the call found them. -/
theorem final (c : Dev nD) :
    (dat0 V c).arrAt 2 cfg0.N = rowsByCols (φ₁ := .f32) (φ₂ := .f32) (M := 50000) (K := 512) (N := 256) (V c main_arg0) (V c main_arg2) :=
  (dat0 V c).arrAt_eq_of_cover 2 _ (fun t _ => flushed_eq V c t) cover

end Cert.KernelIdeal.Dense0

end
-- ==== Proof.Region1.lean ====
/-
  The second dense product, computed 5000 rows at a time, is the whole product.

  The second kernel call walks a grid of 10 points. At point `t` it loads rows `5000·t … 5000·t + 4999` of the
  `50000 × 256` left array (the first layer's output after its rectifier) and the whole `256 × 64` right array,
  multiplies them into a zero accumulator (the reshape to the same shape and the two changes of float format before
  the product are the identity on the extended reals), and writes the `5000 × 64` result back as rows
  `5000·t … 5000·t + 4999` of the output array.

  Entry `(r, c)` of a product is `∑ k, x (r, k) · w (k, c)`: it depends on row `r` of the left array only. So what
  point `t` writes back is exactly rows `5000·t …` of the product of the WHOLE arrays (`flushed_eq`), the 10 blocks
  of rows cover all 50000 rows (`cover`), and the output array ends holding the whole product (`final`) — for any
  contents `V` the buffers hold when the call is entered.
-/
import proofs.«130119_j83545703842127_1_alg».proof.Proof.Gen.KernelIdeal.Frame
import proofs.«130119_j83545703842127_1_alg».proof.Proof.LibPlainProduct
import Idealize.ShloMosaic.Lib.Pipeline.Value
import Idealize.ShloMosaic.Lib.ValueIdx

set_option maxRecDepth 16384

noncomputable section

namespace Cert.KernelIdeal.Dense1

open Cert.KernelIdeal Cert.KernelIdeal.Gen Idealize.ShloMosaic Idealize.ShloMosaic.TcCoe Idealize.SL.Sem
open Idealize.ShloMosaic.ValueIdx Idealize.ShloMosaic.PlainProduct

variable (V : (c : Dev nD) → (b : Ref sig .tc) → Buf (Elt Ideal) ((c : Thread nD τ).loc b))

theorem hz : (![0, 0] : Fin 2 → Nat) = fun _ => 0 := funext fun a => by fin_cases a <;> rfl

/-- What the body stores is the product, rows by columns, of the two blocks it loaded (the reshape of the left block to
    its own shape is the identity). -/
theorem pay_eq (x0 : FVec Ideal S5000x256 .f32) (x1 : FVec Ideal S256x64 .f32) :
    k1_pay1 (F := Ideal) x0 x1 = rowsByCols (M := 5000) (K := 256) (N := 64) x0 x1 := by
  unfold k1_pay1
  simp only [shapeCast_self]
  exact matmul_zero_plain (M := 5000) (K := 256) (N := 64) none x0 x1

/-- The three index maps over the 10 grid points: the left array's block and the output's block are both block `t` of
    rows and the only block of columns; the right array's block is always the whole array. -/
theorem idx_facts : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every one of the 10 blocks of rows is some point's. -/
theorem idx_onto : ∀ q : Fin 10, ∃ t : Fin cfg1.N, win1_2.index t = ![q.val, 0] :=
  (by decide +kernel : ∀ q : Fin 10, ∃ t : Fin grid1.N, win1_2.index t = ![q.val, 0])

/-- WHAT POINT `t` WRITES BACK is block `t` of the product of the whole arrays as the call finds them. -/
theorem flushed_eq (c : Dev nD) (t : Fin cfg1.N) :
    (dat1 V c).flushed 2 t = ((cfg1.win 2).blk t).view.read (Elt Ideal)
      (rowsByCols (φ₁ := .f32) (φ₂ := .f32) (M := 50000) (K := 256) (N := 64) (V c main_v48) (V c main_arg4)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x64) hz]
  rw [pay_eq (iblk1 V c 0 t) (iblk1 V c 1 t)]
  obtain ⟨e0, e1, e2, e3, e4, e5⟩ := idx_facts t
  -- the right array's block is the whole right array
  have hw : (iblk1 V c 1 t : FVec Ideal S256x64 .f32) = V c main_arg4 := by
    funext y
    show V c main_arg4 (((cfg1.win 1).blk t).view.emb y) = V c main_arg4 y
    refine congrArg (V c main_arg4) (funext fun a => Fin.ext ?_)
    match a with
    | ⟨0, _⟩ => show win1_1.index t (0 : Fin 2) * 256 + 1 * (y 0).val = (y 0).val; omega
    | ⟨1, _⟩ => show win1_1.index t (1 : Fin 2) * 64 + 1 * (y 1).val = (y 1).val; omega
  rw [hw]
  funext j
  have hj0 : (j 0).val < 5000 := (j 0).isLt
  -- row `r` of the block is row `5000·t + r` of the array
  let e : Fin 5000 → Fin 50000 := fun r => ⟨win1_2.index t (0 : Fin 2) * 5000 + r.val, by have := r.isLt; omega⟩
  have hxb : ∀ (r : Fin 5000) (k : Fin 256),
      (iblk1 V c 0 t : FVec Ideal S5000x256 .f32) (ix2 (n0 := 5000) (n1 := 256) r k)
        = V c main_v48 (ix2 (n0 := 50000) (n1 := 256) (e r) k) := by
    intro r k
    show V c main_v48 (((cfg1.win 0).blk t).view.emb (ix2 (n0 := 5000) (n1 := 256) r k)) = _
    refine congrArg (V c main_v48) (funext fun a => Fin.ext ?_)
    match a with
    | ⟨0, _⟩ => show win1_0.index t (0 : Fin 2) * 5000 + 1 * r.val = win1_2.index t (0 : Fin 2) * 5000 + r.val; omega
    | ⟨1, _⟩ => show win1_0.index t (1 : Fin 2) * 256 + 1 * k.val = k.val; omega
  have hemb : ((cfg1.win 2).blk t).view.emb j = ix2 (n0 := 50000) (n1 := 64) (e (j 0)) (j 1) := by
    funext a; apply Fin.ext
    match a with
    | ⟨0, _⟩ => show win1_2.index t (0 : Fin 2) * 5000 + 1 * (j 0).val = win1_2.index t (0 : Fin 2) * 5000 + (j 0).val; omega
    | ⟨1, _⟩ => show win1_2.index t (1 : Fin 2) * 64 + 1 * (j 1).val = (j 1).val; omega
  show rowsByCols (M := 5000) (K := 256) (N := 64) (iblk1 V c 0 t) (V c main_arg4) j
    = rowsByCols (φ₁ := .f32) (φ₂ := .f32) (M := 50000) (K := 256) (N := 64) (V c main_v48) (V c main_arg4) (((cfg1.win 2).blk t).view.emb j)
  rw [hemb]
  exact rowsByCols_rows (M := 50000) (K := 256) (N := 64) (B := 5000) (V c main_v48) (V c main_arg4) (iblk1 V c 0 t) e hxb j

/-- An index of the output array is in point `t`'s block iff each coordinate is in the block's range on its axis. -/
theorem mem_blk (t : Fin cfg1.N) (i : S50000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v49).slice (win1_2.rect t)).set ↔ _
  rw [View.set_slice_whole, Rect.mem_set_unit]
  exact Iff.rfl

/-- Every index of the output array is in the block of the point that computes its row: point `r / 5000`. -/
theorem cover (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- THE OUTPUT ARRAY after the call: the product, rows by columns, of the two input arrays as the call found them. -/
theorem final (c : Dev nD) :
    (dat1 V c).arrAt 2 cfg1.N = rowsByCols (φ₁ := .f32) (φ₂ := .f32) (M := 50000) (K := 256) (N := 64) (V c main_v48) (V c main_arg4) :=
  (dat1 V c).arrAt_eq_of_cover 2 _ (fun t _ => flushed_eq V c t) cover

end Cert.KernelIdeal.Dense1

end
-- ==== Proof.Stages.lean ====
/-
  Buffer by buffer, the kernel program computes the reference's stages.

  The two programs apply the same host operations in the same order to the same arguments; they differ only in how
  the two dense products are computed. Follow the kernel program's buffers from the launch memory `m` through its
  eight segments and compare each buffer that a later segment reads with the value the reference computes at the
  same place (its stage, a function of the arguments):

  * before the first kernel call the edge lists with their self-loops (`row`, `col`) and the symmetric normalization
    `norm` are the reference's, the same operations of the same edge array;
  * the first kernel call leaves the product of its two input arrays, rows by columns, and so does the reference's
    dot product with the plain dimension numbers: the first layer's dense output agrees;
  * gathering rows, scaling, the scatter-add, the bias and the rectifier are then the same operations of equal
    operands: the second call's left input is the reference's first layer;
  * the second kernel call and the reference's second dot product are again one product rows by columns;
  * the last gather, scaling, scatter-add and bias are the same operations of equal operands: the result agrees.

  No host operation is opened here: each stretch is compared as a whole, operation for operation.
-/
import proofs.«130119_j83545703842127_1_alg».proof.Proof.Region0
import proofs.«130119_j83545703842127_1_alg».proof.Proof.Region1
import proofs.«130119_j83545703842127_1_alg».proof.Proof.RefReadP
import Idealize.ShloMosaic.Lib.StableHlo.Run

set_option maxRecDepth 16384

noncomputable section

namespace Cert.Stages

open Cert.KernelIdeal Cert.KernelIdeal.Gen
open Idealize.ShloMosaic Idealize.ShloMosaic.TcCoe Idealize.SL.Sem Idealize.ShloMosaic.StableHlo
open Idealize.ShloMosaic.PlainProduct
open Cert.ReferenceIdeal.Read (val_main_v3 val_main_v6 val_main_v7 val_main_v12 val_main_v13 val_main_cst_2 val_main_v14 val_main_v30
  val_main_v31 val_main_v47 val_main_v48 val_main_v49 val_main_v65)

variable (m : (ℓ : Loc nD τ sig) → Buf (Elt Ideal) ℓ) (ρ : Dev nD → PrngReg) (c : Dev nD)

/-- The rewriting half of the library's `after_results`: each operation's result at its own result buffer is its
    function's value, and at any other buffer what was there. Used after `after_results_simp` for the results that sit
    under a concatenation's list of operands, which the one-pass form leaves. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## A stretch keeps the buffers it does not write, and the two outlined calls, from any contents -/

/-- The stretch of the `where` keeps every buffer a later segment reads. -/
theorem keep0_1 (V : Valuation τ sig (Elt Ideal)) (r : Ref sig .tc)
    (hr : r = main_v3 ∨ r = main_v6 ∨ r = main_v7 ∨ r = main_arg0 ∨ r = main_arg2 ∨ r = main_arg3 ∨ r = main_arg4 ∨ r = main_arg5) :
    StableHlo.after (hostOps0_1 (F := Ideal)) V (Proc.devRef .tc r) = V (Proc.devRef .tc r) := by
  simp only [hostOps0_1]
  rcases hr with rfl | rfl | rfl | rfl | rfl | rfl | rfl | rfl <;> after_results_simp

/-- The stretch that computes the normalization keeps the edge lists and the arguments. -/
theorem keep0_2 (V : Valuation τ sig (Elt Ideal)) (r : Ref sig .tc)
    (hr : r = main_v3 ∨ r = main_v6 ∨ r = main_arg0 ∨ r = main_arg2 ∨ r = main_arg3 ∨ r = main_arg4 ∨ r = main_arg5) :
    StableHlo.after (hostOps0_2 (F := Ideal)) V (Proc.devRef .tc r) = V (Proc.devRef .tc r) := by
  simp only [hostOps0_2]
  rcases hr with rfl | rfl | rfl | rfl | rfl | rfl | rfl <;> after_results_simp

/-- The first layer's aggregation keeps the edge lists, the normalization and the later arguments. -/
theorem keep1 (V : Valuation τ sig (Elt Ideal)) (r : Ref sig .tc)
    (hr : r = main_v3 ∨ r = main_v6 ∨ r = main_v30 ∨ r = main_arg4 ∨ r = main_arg5) :
    StableHlo.after (hostOps1 (F := Ideal)) V (Proc.devRef .tc r) = V (Proc.devRef .tc r) := by
  simp only [hostOps1]
  rcases hr with rfl | rfl | rfl | rfl | rfl <;> after_results_simp

/-- So does the rectifier's stretch. -/
theorem keep1_1 (V : Valuation τ sig (Elt Ideal)) (r : Ref sig .tc)
    (hr : r = main_v3 ∨ r = main_v6 ∨ r = main_v30 ∨ r = main_arg4 ∨ r = main_arg5) :
    StableHlo.after (hostOps1_1 (F := Ideal)) V (Proc.devRef .tc r) = V (Proc.devRef .tc r) := by
  simp only [hostOps1_1]
  rcases hr with rfl | rfl | rfl | rfl | rfl <;> after_results_simp

/-- The masked reciprocal square root (a `where` on the mask): from any contents `V`, its three operations leave in the
    result buffer the selection, by the mask, between the candidate and the broadcast of the scalar. -/
theorem where_result (V : Valuation τ sig (Elt Ideal)) :
    StableHlo.after (hostOps0_1 (F := Ideal)) V (Proc.devRef .tc main_v14)
      = select (V (Proc.devRef .tc main_v12)) (V (Proc.devRef .tc main_v13))
          (broadcastInDim S50000 ![] bcast_S_S50000 (id (V (Proc.devRef .tc main_cst_2)))) := by
  simp only [hostOps0_1]
  after_results_simp
  rfl

/-- The rectifier: from any contents `V`, its three operations leave in the result buffer the maximum of the operand
    and the broadcast zero. -/
theorem relu_result (V : Valuation τ sig (Elt Ideal)) :
    StableHlo.after (hostOps1_1 (F := Ideal)) V (Proc.devRef .tc main_v48)
      = maximumf (V (Proc.devRef .tc main_v47))
          (broadcastInDim S50000x256 ![] bcast_S_S50000x256 (constant (F := Ideal) S_ .f32 0x00000000#32)) := by
  simp only [hostOps1_1]
  after_results_simp
  rfl

/-! ## After the first stretch: the edge lists, the constant ones, the mask and the candidate -/

theorem W1_v3 : W1 m ρ c (Proc.devRef .tc main_v3) = val_main_v3 (F := Ideal) (m ((c : Thread nD τ).loc main_arg1)) := by
  dsimp only [W1, W0]; simp only [hostOps0]; after_results_simp; results_rw; rfl

theorem W1_v6 : W1 m ρ c (Proc.devRef .tc main_v6) = val_main_v6 (F := Ideal) (m ((c : Thread nD τ).loc main_arg1)) := by
  dsimp only [W1, W0]; simp only [hostOps0]; after_results_simp; results_rw; rfl

theorem W1_v7 : W1 m ρ c (Proc.devRef .tc main_v7) = val_main_v7 (F := Ideal) := by
  dsimp only [W1, W0]; simp only [hostOps0]; after_results_simp; results_rw; rfl

theorem W1_v12 : W1 m ρ c (Proc.devRef .tc main_v12) = val_main_v12 (F := Ideal) (m ((c : Thread nD τ).loc main_arg1)) := by
  dsimp only [W1, W0]; simp only [hostOps0]; after_results_simp; results_rw; rfl

theorem W1_v13 : W1 m ρ c (Proc.devRef .tc main_v13) = val_main_v13 (F := Ideal) (m ((c : Thread nD τ).loc main_arg1)) := by
  dsimp only [W1, W0]; simp only [hostOps0]; after_results_simp; results_rw; rfl

theorem W1_cst_2 : W1 m ρ c (Proc.devRef .tc main_cst_2) = val_main_cst_2 (F := Ideal) := by
  dsimp only [W1, W0]; simp only [hostOps0]; after_results_simp; results_rw; rfl

/-- No host operation writes an argument. -/
theorem W1_arg (r : Ref sig .tc) (hr : r = main_arg0 ∨ r = main_arg2 ∨ r = main_arg3 ∨ r = main_arg4 ∨ r = main_arg5) :
    W1 m ρ c (Proc.devRef .tc r) = m ((c : Thread nD τ).loc r) := by
  dsimp only [W1, W0]; simp only [hostOps0]
  rcases hr with rfl | rfl | rfl | rfl | rfl <;> (after_results_simp <;> rfl)

/-! ## After the `where`: the reciprocal square roots of the degrees, zero where the degree is zero -/

theorem W2_v14 : W2 m ρ c (Proc.devRef .tc main_v14) = val_main_v14 (F := Ideal) (m ((c : Thread nD τ).loc main_arg1)) := by
  show StableHlo.after hostOps0_1 (W1 m ρ c) (Proc.devRef .tc main_v14) = _
  rw [where_result, W1_v12, W1_v13, W1_cst_2]
  rfl

/-! ## At the first kernel call's entry -/

/-- The edge sources with the self-loops appended. -/
theorem W3_v3 : W3 m ρ c (Proc.devRef .tc main_v3) = val_main_v3 (F := Ideal) (m ((c : Thread nD τ).loc main_arg1)) :=
  (keep0_2 (W2 m ρ c) main_v3 (.inl rfl)).trans ((keep0_1 (W1 m ρ c) main_v3 (.inl rfl)).trans (W1_v3 m ρ c))

/-- The edge targets with the self-loops appended. -/
theorem W3_v6 : W3 m ρ c (Proc.devRef .tc main_v6) = val_main_v6 (F := Ideal) (m ((c : Thread nD τ).loc main_arg1)) :=
  (keep0_2 (W2 m ρ c) main_v6 (.inr (.inl rfl))).trans ((keep0_1 (W1 m ρ c) main_v6 (.inr (.inl rfl))).trans (W1_v6 m ρ c))

/-- The symmetric normalization of each edge. -/
theorem W3_v30 : W3 m ρ c (Proc.devRef .tc main_v30) = val_main_v30 (F := Ideal) (m ((c : Thread nD τ).loc main_arg1)) := by
  show StableHlo.after hostOps0_2 (W2 m ρ c) (Proc.devRef .tc main_v30) = _
  generalize hV : W2 m ρ c = V
  simp only [hostOps0_2]
  after_results_simp
  subst hV
  rw [W2_v14]
  rw [show W2 m ρ c (Proc.devRef .tc main_v3) = val_main_v3 (F := Ideal) (m ((c : Thread nD τ).loc main_arg1)) from
        (keep0_1 (W1 m ρ c) main_v3 (.inl rfl)).trans (W1_v3 m ρ c),
      show W2 m ρ c (Proc.devRef .tc main_v6) = val_main_v6 (F := Ideal) (m ((c : Thread nD τ).loc main_arg1)) from
        (keep0_1 (W1 m ρ c) main_v6 (.inr (.inl rfl))).trans (W1_v6 m ρ c),
      show W2 m ρ c (Proc.devRef .tc main_v7) = val_main_v7 (F := Ideal) from
        (keep0_1 (W1 m ρ c) main_v7 (.inr (.inr (.inl rfl)))).trans (W1_v7 m ρ c)]
  rfl

/-- At the first call's entry each argument is as launched. -/
theorem W3_arg (r : Ref sig .tc) (hr : r = main_arg0 ∨ r = main_arg2 ∨ r = main_arg3 ∨ r = main_arg4 ∨ r = main_arg5) :
    W3 m ρ c (Proc.devRef .tc r) = m ((c : Thread nD τ).loc r) :=
  (keep0_2 (W2 m ρ c) r (.inr (.inr hr))).trans ((keep0_1 (W1 m ρ c) r (.inr (.inr (.inr hr)))).trans (W1_arg m ρ c r hr))

/-! ## The first kernel call -/

/-- The first layer's dense output: the kernel call's product is the reference's dot product. -/
theorem W4_v31 : W4 m ρ c (Proc.devRef .tc main_v31) = val_main_v31 (F := Ideal) (m ((c : Thread nD τ).loc main_arg0)) (m ((c : Thread nD τ).loc main_arg2)) := by
  refine ((W4_arr m ρ c 2).trans (Cert.KernelIdeal.Dense0.final (V3 m ρ) c)).trans ?_
  show rowsByCols (φ₁ := .f32) (φ₂ := .f32) (M := 50000) (K := 512) (N := 256)
      (W3 m ρ c (Proc.devRef .tc main_arg0)) (W3 m ρ c (Proc.devRef .tc main_arg2)) = _
  rw [W3_arg m ρ c main_arg0 (.inl rfl), W3_arg m ρ c main_arg2 (.inr (.inl rfl))]
  unfold val_main_v31
  simp only [Host.dotGeneral]
  exact (dotGeneral_plain (M := 50000) (K := 512) (N := 256) none _ _ _).symm

/-! ## Between the two kernel calls -/

/-- The first layer before its rectifier: rows gathered along the edges, scaled, scatter-added, plus the bias. -/
theorem W5_v47 : W5 m ρ c (Proc.devRef .tc main_v47) = val_main_v47 (F := Ideal) (m ((c : Thread nD τ).loc main_arg0)) (m ((c : Thread nD τ).loc main_arg1)) (m ((c : Thread nD τ).loc main_arg2)) (m ((c : Thread nD τ).loc main_arg3)) := by
  show StableHlo.after hostOps1 (W4 m ρ c) (Proc.devRef .tc main_v47) = _
  generalize hV : W4 m ρ c = V
  simp only [hostOps1]
  after_results_simp
  subst hV
  rw [W4_v31, W4_of_ne m ρ c main_v3 (by decide), W4_of_ne m ρ c main_v6 (by decide), W4_of_ne m ρ c main_v30 (by decide),
    W4_of_ne m ρ c main_arg3 (by decide), W3_v3, W3_v6, W3_v30, W3_arg m ρ c main_arg3 (.inr (.inr (.inl rfl)))]
  rfl

/-- The second call's left input: the first layer after its rectifier. -/
theorem W6_v48 : W6 m ρ c (Proc.devRef .tc main_v48) = val_main_v48 (F := Ideal) (m ((c : Thread nD τ).loc main_arg0)) (m ((c : Thread nD τ).loc main_arg1)) (m ((c : Thread nD τ).loc main_arg2)) (m ((c : Thread nD τ).loc main_arg3)) := by
  show StableHlo.after hostOps1_1 (W5 m ρ c) (Proc.devRef .tc main_v48) = _
  rw [relu_result, W5_v47]
  rfl

/-- The buffers the last stretch still reads are kept from the first call's entry to the second call's. -/
theorem W6_keep (r : Ref sig .tc) (hr : r = main_v3 ∨ r = main_v6 ∨ r = main_v30 ∨ r = main_arg4 ∨ r = main_arg5) :
    W6 m ρ c (Proc.devRef .tc r) = W3 m ρ c (Proc.devRef .tc r) := by
  refine (keep1_1 (W5 m ρ c) r hr).trans ((keep1 (W4 m ρ c) r hr).trans ?_)
  rcases hr with rfl | rfl | rfl | rfl | rfl <;> exact W4_of_ne m ρ c _ (by decide)

/-! ## The second kernel call -/

/-- The second layer's dense output: the kernel call's product is the reference's dot product. -/
theorem W7_v49 : W7 m ρ c (Proc.devRef .tc main_v49)
    = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine ((W7_arr m ρ c 2).trans (Cert.KernelIdeal.Dense1.final (V6 m ρ) c)).trans ?_
  show rowsByCols (φ₁ := .f32) (φ₂ := .f32) (M := 50000) (K := 256) (N := 64)
      (W6 m ρ c (Proc.devRef .tc main_v48)) (W6 m ρ c (Proc.devRef .tc main_arg4)) = _
  rw [W6_v48, W6_keep m ρ c main_arg4 (.inr (.inr (.inr (.inl rfl)))), W3_arg m ρ c main_arg4 (.inr (.inr (.inr (.inl rfl))))]
  unfold val_main_v49
  simp only [Host.dotGeneral]
  exact (dotGeneral_plain (M := 50000) (K := 256) (N := 64) none _ _ _).symm

/-! ## After the second kernel call -/

/-- THE RESULT: what the kernel program leaves in its result buffer is the reference's last stage of the arguments. -/
theorem W8_v65 : W8 m ρ c (Proc.devRef .tc main_v65)
    = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W7 m ρ c) (Proc.devRef .tc main_v65) = _
  generalize hV : W7 m ρ c = V
  simp only [hostOps2]
  after_results_simp
  subst hV
  rw [W7_v49, W7_of_ne m ρ c main_v3 (by decide), W7_of_ne m ρ c main_v6 (by decide), W7_of_ne m ρ c main_v30 (by decide),
    W7_of_ne m ρ c main_arg5 (by decide),
    W6_keep m ρ c main_v3 (.inl rfl), W6_keep m ρ c main_v6 (.inr (.inl rfl)), W6_keep m ρ c main_v30 (.inr (.inr (.inl rfl))),
    W6_keep m ρ c main_arg5 (.inr (.inr (.inr (.inr rfl)))),
    W3_v3, W3_v6, W3_v30, W3_arg m ρ c main_arg5 (.inr (.inr (.inr (.inr rfl))))]
  rfl

end Cert.Stages

end
-- ==== Proof.lean ====
/- The proof of `Cert.Claim` (proofs.«130119_j83545703842127_1_alg».proof.Defs): a two-layer graph convolution whose two dense products run as tiled
   kernel calls, against the same network written with whole dot products.

   Both programs build the edge lists with self-loops and the symmetric normalization from the edge array, and in each
   layer gather the dense output's rows along the edges, scale them, scatter-add them into the target nodes and add the
   bias, with a rectifier between the layers — the same host operations in the same order. They differ in the dense
   products alone: the kernel program computes `x · W1` 2000 rows at a time and `h · W2` 5000 rows at a time on the
   matrix unit, each block into a zero accumulator; the reference takes one dot product of the whole arrays.

   On the extended reals entry `(r, c)` of either is `∑ k, x (r, k) · w (k, c)`, a sum that depends on row `r` of the left
   array only, so the blocks of rows tile the whole product (Proof/LibPlainProduct.lean, Proof/Region0.lean,
   Proof/Region1.lean). Every buffer a later stretch reads then holds in the kernel program what the reference computes
   at the same place (Proof/Stages.lean), and both programs end with the reference's last stage of the arguments in the
   result buffer. No law beyond the identity of the two sums is used, so the inputs' finiteness is never needed: the
   frames and the value claim hold from any memory.

   The three frames are the generated ones (the reference's is its run with the result dropped); the ideal pass rewrote
   nothing, so `preserves` is `True`. -/
import proofs.«130119_j83545703842127_1_alg».proof.Defs
import proofs.«130119_j83545703842127_1_alg».proof.Proof.Gen.Kernel
import proofs.«130119_j83545703842127_1_alg».proof.Proof.Gen.Kernel.Skeleton
import proofs.«130119_j83545703842127_1_alg».proof.Proof.Gen.Kernel.Launch
import proofs.«130119_j83545703842127_1_alg».proof.Proof.Gen.Kernel.Points
import proofs.«130119_j83545703842127_1_alg».proof.Proof.Gen.Kernel.Frame
import proofs.«130119_j83545703842127_1_alg».proof.Proof.Gen.KernelIdeal
import proofs.«130119_j83545703842127_1_alg».proof.Proof.Gen.KernelIdeal.Skeleton
import proofs.«130119_j83545703842127_1_alg».proof.Proof.Gen.KernelIdeal.Launch
import proofs.«130119_j83545703842127_1_alg».proof.Proof.Gen.KernelIdeal.Points
import proofs.«130119_j83545703842127_1_alg».proof.Proof.Gen.KernelIdeal.Frame
import proofs.«130119_j83545703842127_1_alg».proof.Proof.Gen.ReferenceIdeal
import proofs.«130119_j83545703842127_1_alg».proof.Proof.Gen.Pre_finite_inputs
import proofs.«130119_j83545703842127_1_alg».proof.Proof.KernelRun
import proofs.«130119_j83545703842127_1_alg».proof.Proof.Stages
import Idealize.ShloMosaic.Adequacy
import Idealize.ShloMosaic.Init

noncomputable section

namespace Cert.Proof

open Idealize.ShloMosaic Idealize.SL.Sem

/-- The kernel program as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the six arguments both programs end with the same array in the result buffer: the
    reference's last stage of those arguments. -/
theorem algebraic : Cert.algebraic_KernelIdeal_ReferenceIdeal := by
  intro m ρ m' ρ' _ hagree
  refine ⟨fun c => Cert.ReferenceIdeal.Read.val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun _ h c => ⟨(h c).1.trans (Cert.Stages.W8_v65 m ρ c), (h c).2⟩)
      (Cert.KernelIdeal.Out.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v65_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
